-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8192x512 .f32) (main_arg1 : FVec F S512x512 .f32) (main_arg2 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8192x512 : Shape := ⟨2, ![8192, 512]⟩
abbrev S512x512 : Shape := ⟨2, ![512, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x512 : Shape := ⟨2, ![1, 512]⟩
abbrev S1024x512 : Shape := ⟨2, ![1024, 512]⟩
abbrev S1024x1 : Shape := ⟨2, ![1024, 1]⟩
abbrev S1x1024 : Shape := ⟨2, ![1, 1024]⟩
abbrev S512x1024 : Shape := ⟨2, ![512, 1024]⟩
abbrev S1024x1024 : Shape := ⟨2, ![1024, 1024]⟩
abbrev S1024 : Shape := ⟨1, ![1024]⟩

abbrev nBuf : Space → Nat
  | .hbm => 23
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S1x8192, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x512, .bf16⟩
  | .hbm, ⟨18, _⟩ => ⟨S8192x512, .bf16⟩
  | .hbm, ⟨19, _⟩ => ⟨S512x512, .bf16⟩
  | .hbm, ⟨20, _⟩ => ⟨S512x512, .bf16⟩
  | .hbm, ⟨21, _⟩ => ⟨S1x512, .f32⟩
  | .hbm, ⟨22, _⟩ => ⟨S8192x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S512x512, .bf16⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_19 : BitVec 32 := 0#32
  let v36 : BitVec 1 := Scalar.cmpi .ne v35 c0_i32_19
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S8192x512_S8192_d1 : S8192x512.ReducesTo [1] S8192
  h_S_ : 0 < S_.numel
  bcast_S_S8192 : S_.BroadcastsInDim S8192 (![] : Fin 0 → Fin S8192.rank)
  shapeCasts_S8192_S8192x1 : S8192.ShapeCasts S8192x1
  shapeCasts_S8192_S1x8192 : S8192.ShapeCasts S1x8192
  bcast_S_S8192x512 : S_.BroadcastsInDim S8192x512 (![] : Fin 0 → Fin S8192x512.rank)
  bitsLt_bf16_f32 : FTy.bits .bf16 < FTy.bits .f32
  transposes_S512x512_S512x512_1_0 : S512x512.Transposes [1, 0] S512x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x512 : S1024x1.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x512.size a
  hwx0_6 : ∀ i : grid0.Coords, EltTy.bits .f32 = 32 ∨ (Rect.block (s := S8192x512) S1024x512.size (cc0_transform_6 i) (hinb0_6 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v10) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x512 : Shape := ⟨2, ![8192, 512]⟩
abbrev S512x512 : Shape := ⟨2, ![512, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩
abbrev S1x512 : Shape := ⟨2, ![1, 512]⟩

abbrev nBuf : Space → Nat
  | .hbm => 39
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S512x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S8192x512, .f32⟩
  | .hbm, ⟨34, _⟩ => ⟨S512x512, .f32⟩
  | .hbm, ⟨35, _⟩ => ⟨S8192x512, .f32⟩
  | .hbm, ⟨36, _⟩ => ⟨S1x512, .f32⟩
  | .hbm, ⟨37, _⟩ => ⟨S8192x512, .f32⟩
  | .hbm, ⟨38, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  bcast_S_S8192x1 : S_.BroadcastsInDim S8192x1 (![] : Fin 0 → Fin S8192x1.rank)
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.Spec.lean ====
/-
  The specification: what the two programs compute, entry by entry, on the extended reals.

  For `x : [N, D]` (N = 8192 rows, D = 512 features), `W : [O, D]` and `b : [O]` the result is a kernel-regression
  average followed by a linear layer:  with `sq R = ∑ d, x R d ^ 2` and the Gaussian weight
  `w R n = exp (-(max (sq R + sq n - 2 ⟨x R, x n⟩) 0) / 2048)`,

      y R d = (∑ n, w R n · x n d) / (∑ n, w R n + ε),        out R o = ∑ d, y R d · W o d + b o.

  The two programs arrange this differently.  One (`k…` below) scales before it multiplies — the exponent is
  `(sq R · c₋ + sq n · c₋) + ∑ d, (x R d · c₊) · x n d` with `c₋ = -2⁻¹¹`, `c₊ = 2⁻¹⁰`, clamped from above by `min · 0` —
  and divides the weighted sum once, after summing.  The other (`r…` below) clamps the squared distance from below,
  negates, divides by 2048, and normalises each weight before the weighted sum.  Both are stated here exactly as the
  operations are applied, float literals kept as words; that they agree when `x` is finite is the algebra of another
  module.
-/
import Idealize.ShloMosaic.PureOps.Ideal
import Idealize.ShloMosaic.Lib.ValueIdx

noncomputable section

namespace Cert.Spec

open Idealize.ShloMosaic

/-- The word of `0.0`. -/
abbrev z : EReal := Ideal.ofBits .f32 0x00000000#32
/-- The word of `-2⁻¹¹ = -1/2048`. -/
abbrev cneg : EReal := Ideal.ofBits .f32 0xBA000000#32
/-- The word of `2⁻¹⁰ = 1/1024`. -/
abbrev cpos : EReal := Ideal.ofBits .f32 0x3A800000#32
/-- The word of `2.0`. -/
abbrev two : EReal := Ideal.ofBits .f32 0x40000000#32
/-- The word of `2048.0`. -/
abbrev c2048 : EReal := Ideal.ofBits .f32 0x45000000#32
/-- The word of the small positive `ε` added to the normaliser (the same word in both arrangements). -/
abbrev eps : EReal := Ideal.ofBits .f32 0x322BCC77#32

variable (x : Fin 8192 → Fin 512 → EReal)

/-- The squared norm of row `R`, summed from the zero word. -/
def sq (R : Fin 8192) : EReal := z + ∑ d : Fin 512, x R d * x R d

/-! ## Scaled first, divided once -/

/-- The exponent before the clamp: the two scaled squared norms, then the scaled inner product. -/
def kArg (R n : Fin 8192) : EReal := (sq x R * cneg + sq x n * cneg) + ∑ d : Fin 512, (x R d * cpos) * x n d

/-- The weight: the exponential of the exponent clamped from above at zero. -/
def kW (R n : Fin 8192) : EReal := Ideal.exp (min (kArg x R n) z)

/-- The normaliser: the row's weights summed from the zero word. -/
def kL (R : Fin 8192) : EReal := z + ∑ n : Fin 8192, kW x R n

/-- The weighted sum of the rows, summed from the zero word. -/
def kAcc (R : Fin 8192) (d : Fin 512) : EReal := z + ∑ n : Fin 8192, kW x R n * x n d

/-- The average: the weighted sum divided once by the normaliser plus `ε`. -/
def kY (R : Fin 8192) (d : Fin 512) : EReal := Ideal.div (kAcc x R d) (kL x R + eps)

/-- The linear layer on the average. -/
def kOut (W : Fin 512 → Fin 512 → EReal) (b : Fin 512 → EReal) (R : Fin 8192) (o : Fin 512) : EReal :=
  (∑ d : Fin 512, kY x R d * W o d) + b o

/-! ## Clamped distance, normalised weights -/

/-- The squared distance by the Gram identity, clamped from below at zero. -/
def rSqd (R n : Fin 8192) : EReal := max ((sq x R + sq x n) - two * ∑ d : Fin 512, x R d * x n d) z

/-- The weight: the exponential of minus the squared distance over 2048. -/
def rW (R n : Fin 8192) : EReal := Ideal.exp (Ideal.div (-(rSqd x R n)) c2048)

/-- The normaliser: the row's weights summed from the zero word. -/
def rL (R : Fin 8192) : EReal := z + ∑ n : Fin 8192, rW x R n

/-- The normalised weight. -/
def rP (R n : Fin 8192) : EReal := Ideal.div (rW x R n) (rL x R + eps)

/-- The average: the rows weighted by the normalised weights. -/
def rY (R : Fin 8192) (d : Fin 512) : EReal := ∑ n : Fin 8192, rP x R n * x n d

/-- The linear layer on the average. -/
def rOut (W : Fin 512 → Fin 512 → EReal) (b : Fin 512 → EReal) (R : Fin 8192) (o : Fin 512) : EReal :=
  (∑ d : Fin 512, rY x R d * W o d) + b o

end Cert.Spec

end
-- ==== Proof.HostArrays.lean ====
/-
  The arrays the region finds, entry by entry, in terms of the argument arrays.
-/
import proofs.«172829_j24429773979648_2_alg».proof.Proof.Gen.KernelIdeal.Frame
import proofs.«172829_j24429773979648_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.HostArrays

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- The first argument as a function of its two coordinates. -/
abbrev xs : Fin 8192 → Fin 512 → EReal := fun R d => m ((c : Thread nD τ).loc main_arg0) (ix2 R d)

/-! ## Layout operations read at coordinates -/

/-- A scalar broadcast to any shape reads the scalar everywhere. -/
private theorem bcast0_apply {t : Shape} (h : S_.BroadcastsInDim t (![] : Fin 0 → Fin t.rank)) (y : S_.Idx → EReal) (j : t.Idx) :
    broadcastInDim t ![] h y j = y ix0 :=
  broadcastInDim_apply _ h y j ix0 (fun a => a.elim0)

/-- A vector `[n]` cast to a column `[n, 1]` reads, at `(r, u)`, the vector at `r`: the row-major position of
    `(r, u)` is `r · 1 + u` with `u = 0`. -/
private theorem cast_col {n : ℕ} (v : (⟨1, ![n]⟩ : Shape).Idx → EReal) (h : (⟨1, ![n]⟩ : Shape).ShapeCasts ⟨2, ![n, 1]⟩)
    (r : Fin n) (u : Fin 1) : shapeCast ⟨2, ![n, 1]⟩ v h (ix2 r u) = v (ix1 r) :=
  shapeCast_apply v h _ _ (by
    have hu : u.val = 0 := by omega
    rw [Shape.rowMajor_val_two, Shape.rowMajor_val_one]
    show r.val = r.val * 1 + u.val
    omega)

/-- The row reduction of the elementwise square, from the zero word, is the squared norm of the row. -/
private theorem rowsum (A : S8192x512.Idx → EReal) (R : Fin 8192) :
    Host.reduceAdd (F := Ideal) (mulf (F := Ideal) (φ := .f32) A A) (constant (F := Ideal) S_ .f32 0x00000000#32)
        reducesTo_S8192x512_S8192_d1 h_S_ (ix1 R)
      = Cert.Spec.sq (fun R d => A (ix2 R d)) R := by
  simp only [Host.reduceAdd, Ideal.hostReduceAdd_def]
  rw [Ideal.hostReduceAdd_single reducesTo_S8192x512_S8192_d1 (by decide)]
  unfold Cert.Spec.sq
  refine congrArg (_ + ·) (Finset.sum_congr rfl fun k _ => ?_)
  have ei : (Shape.Reduces.lift (s := S8192x512) (t := S8192) (a := 1) (by decide) (ix1 R) k : S8192x512.Idx) = ix2 R k :=
    funext fun a => Fin.ext (by match a with | ⟨0, _⟩ => rfl | ⟨1, _⟩ => rfl)
  rw [ei]
  rfl

/-- The scaled squared norm as a vector: the row reduction times the broadcast scaling word. -/
private theorem scaled_apply (A : S8192x512.Idx → EReal) (R : Fin 8192) :
    mulf (F := Ideal) (φ := .f32)
        (Host.reduceAdd (F := Ideal) (mulf (F := Ideal) (φ := .f32) A A) (constant (F := Ideal) S_ .f32 0x00000000#32)
          reducesTo_S8192x512_S8192_d1 h_S_)
        (broadcastInDim S8192 ![] bcast_S_S8192 (constant (F := Ideal) S_ .f32 0xBA000000#32)) (ix1 R)
      = Cert.Spec.sq (fun R d => A (ix2 R d)) R * Cert.Spec.cneg := by
  rw [mulf_apply, rowsum, bcast0_apply]
  rfl

/-! ## The six arrays -/

theorem V_v10 (R : Fin 8192) (d : Fin 512) : V m c main_v10 (ix2 R d) = xs m c R d * Cert.Spec.cpos := by
  have e : (V m c main_v10 : S8192x512.Idx → EReal)
      = truncf (F := Ideal) .bf16 (mulf (F := Ideal) (φ := .f32) (m ((c : Thread nD τ).loc main_arg0))
          (broadcastInDim S8192x512 ![] bcast_S_S8192x512 (constant (F := Ideal) S_ .f32 0x3A800000#32))) bitsLt_bf16_f32 := by
    dsimp only [Gen.V, Gen.hostOps0]; after_results
  rw [e, truncf_apply, mulf_apply, bcast0_apply]
  rfl
theorem V_v11 (R : Fin 8192) (d : Fin 512) : V m c main_v11 (ix2 R d) = xs m c R d := by
  have e : (V m c main_v11 : S8192x512.Idx → EReal)
      = truncf (F := Ideal) .bf16 (m ((c : Thread nD τ).loc main_arg0)) bitsLt_bf16_f32 := by
    dsimp only [Gen.V, Gen.hostOps0]; after_results
  rw [e]
  rfl
theorem V_v4 (R : Fin 8192) (u : Fin 1) : V m c main_v4 (ix2 R u) = Cert.Spec.sq (xs m c) R * Cert.Spec.cneg := by
  have e : (V m c main_v4 : S8192x1.Idx → EReal)
      = shapeCast S8192x1 (mulf (F := Ideal) (φ := .f32)
          (Host.reduceAdd (F := Ideal) (mulf (F := Ideal) (φ := .f32) (m ((c : Thread nD τ).loc main_arg0)) (m ((c : Thread nD τ).loc main_arg0)))
            (constant (F := Ideal) S_ .f32 0x00000000#32) reducesTo_S8192x512_S8192_d1 h_S_)
          (broadcastInDim S8192 ![] bcast_S_S8192 (constant (F := Ideal) S_ .f32 0xBA000000#32))) shapeCasts_S8192_S8192x1 := by
    dsimp only [Gen.V, Gen.hostOps0]; after_results; rfl
  rw [e, cast_col, scaled_apply]
theorem V_v7 (u : Fin 1) (n : Fin 8192) : V m c main_v7 (ix2 u n) = Cert.Spec.sq (xs m c) n * Cert.Spec.cneg := by
  have e : (V m c main_v7 : S1x8192.Idx → EReal)
      = shapeCast S1x8192 (mulf (F := Ideal) (φ := .f32)
          (Host.reduceAdd (F := Ideal) (mulf (F := Ideal) (φ := .f32) (m ((c : Thread nD τ).loc main_arg0)) (m ((c : Thread nD τ).loc main_arg0)))
            (constant (F := Ideal) S_ .f32 0x00000000#32) reducesTo_S8192x512_S8192_d1 h_S_)
          (broadcastInDim S8192 ![] bcast_S_S8192 (constant (F := Ideal) S_ .f32 0xBA000000#32))) shapeCasts_S8192_S1x8192 := by
    dsimp only [Gen.V, Gen.hostOps0]; after_results; rfl
  rw [e, shapeCast_a_1a_apply, scaled_apply]
theorem V_v13 (d o : Fin 512) : V m c main_v13 (ix2 d o) = m ((c : Thread nD τ).loc main_arg1) (ix2 o d) := by
  have e : (V m c main_v13 : S512x512.Idx → EReal)
      = transpose S512x512 [1, 0] (truncf (F := Ideal) .bf16 (m ((c : Thread nD τ).loc main_arg1)) bitsLt_bf16_f32)
          transposes_S512x512_S512x512_1_0 := by
    dsimp only [Gen.V, Gen.hostOps0]; after_results
  rw [e, transpose_ix2_apply]
  rfl
theorem V_v14 (u : Fin 1) (o : Fin 512) : V m c main_v14 (ix2 u o) = m ((c : Thread nD τ).loc main_arg2) (ix1 o) := by
  have e : (V m c main_v14 : S1x512.Idx → EReal)
      = shapeCast S1x512 (m ((c : Thread nD τ).loc main_arg2)) shapeCasts_S512_S1x512 := by
    dsimp only [Gen.V, Gen.hostOps0]; after_results; rfl
  rw [e, shapeCast_a_1a_apply]

end Cert.KernelIdeal.HostArrays

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.PayIdx.lean ====
/-
  The body's arithmetic read at an entry, on the extended reals.

  On a [1024, 512] block `xi` of scaled rows, a [1024, 512] block `xj` of rows, a [1024, 1] column `a` and a [1, 1024]
  row `bb` of scaled squared norms, the body forms the [1024, 1024] weights

      w r k = exp (min ((a r + bb k) + ∑ d, xi r d · xj k d) 0),

  adds each row's weights to the running normaliser, adds the weights times `xj` to the running weighted sum, and at
  the last step divides the weighted sum by the normaliser plus ε, multiplies by the transposed layer weights and
  adds the bias row.  A sum on the extended reals is a sum in a commutative monoid: nothing here needs finiteness.
-/
import proofs.«172829_j24429773979648_2_alg».proof.Proof.Gen.KernelIdeal.Skeleton
import proofs.«172829_j24429773979648_2_alg».proof.Proof.Spec
import proofs.«172829_j24429773979648_2_alg».proof.Proof.LibDense
import proofs.«172829_j24429773979648_2_alg».proof.Proof.LibAxisSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx

/-- The weight at row `r` of the row block and row `k` of the column block. -/
def wBlk (xi xj : Vec Ideal S1024x512 .bf16) (a : Vec Ideal S1024x1 .f32) (bb : Vec Ideal S1x1024 .f32) (r k : Fin 1024) : EReal :=
  Ideal.exp (min ((a (ix2 r 0) + bb (ix2 0 k)) + ∑ d : Fin 512, xi (ix2 r d) * xj (ix2 k d)) Cert.Spec.z)

/-- A column `[n, 1]` broadcast along a second axis reads, at `(r, k)`, the column at `r`. -/
theorem col_bcast {n q : ℕ} (hq : q ≠ 1 ∨ True) (v : (⟨2, ![n, 1]⟩ : Shape).Idx → EReal) (h : (⟨2, ![n, 1]⟩ : Shape).Broadcasts ⟨2, ![n, q]⟩)
    (r : Fin n) (k : Fin q) : broadcastTo ⟨2, ![n, q]⟩ v h (ix2 r k) = v (ix2 r 0) := by
  refine broadcastTo_apply v h (ix2 r k) (ix2 r 0) fun ax => ?_
  match ax with
  | ⟨0, _⟩ =>
    show r.val = if n = 1 then 0 else r.val
    split
    · have := r.isLt; omega
    · rfl
  | ⟨1, _⟩ => rfl

/-- A vector `[n]` cast to a column `[n, 1]` reads, at `(r, u)`, the vector at `r`. -/
theorem cast_col {n : ℕ} (v : (⟨1, ![n]⟩ : Shape).Idx → EReal) (h : (⟨1, ![n]⟩ : Shape).ShapeCasts ⟨2, ![n, 1]⟩) (r : Fin n) (u : Fin 1) :
    shapeCast ⟨2, ![n, 1]⟩ v h (ix2 r u) = v (ix1 r) :=
  shapeCast_apply v h _ _ (by
    have hu : u.val = 0 := by omega
    rw [Shape.rowMajor_val_two, Shape.rowMajor_val_one]
    show r.val = r.val * 1 + u.val
    omega)

theorem pay2_apply (i : S1024x512.Idx) : k0_pay2 (F := Ideal) i = Cert.Spec.z := by
  unfold k0_pay2
  rw [shapeCast_self]
  rfl

theorem pay3_apply (i : S1024x1.Idx) : k0_pay3 (F := Ideal) i = Cert.Spec.z := by
  unfold k0_pay3
  rw [shapeCast_self]
  rfl

/-- The weights. -/
theorem pay5_apply (xi xj : Vec Ideal S1024x512 .bf16) (a : Vec Ideal S1024x1 .f32) (bb : Vec Ideal S1x1024 .f32) (r k : Fin 1024) :
    k0_pay5 (F := Ideal) xi xj a bb (ix2 r k) = wBlk xi xj a bb r k := by
  unfold k0_pay5 k0_pay4 wBlk
  simp only [shapeCast_self]
  show Ideal.exp (min ((broadcastTo S1024x1024 a _ (ix2 r k) + broadcastTo S1024x1024 bb _ (ix2 r k))
    + matmul (F := Ideal) dot_S1024x512_S512x1024_S1024x1024_1_0_0_1_n_n none xi (transpose S512x1024 [1, 0] xj _)
        (constant S1024x1024 .f32 0x00000000#32) (ix2 r k)) (Ideal.ofBits .f32 0x00000000#32)) = _
  rw [col_bcast (Or.inr trivial), broadcastTo_1b_ab_apply]
  refine congrArg (fun t => Ideal.exp (min ((a (ix2 r 0) + bb (ix2 0 k)) + t) (Ideal.ofBits .f32 0x00000000#32))) ?_
  refine (Cert.LibDense.matmul_plain (M := 1024) (K := 512) (N := 1024) xi _ (ix2 r k)).trans ?_
  unfold Cert.LibDense.prod
  refine Finset.sum_congr rfl fun d _ => congrArg (xi (ix2 r d) * ·) ?_
  exact transpose_ix2_apply xj _ d k

/-- The normaliser advanced by one block. -/
theorem pay6_apply (xi xj : Vec Ideal S1024x512 .bf16) (a : Vec Ideal S1024x1 .f32) (bb : Vec Ideal S1x1024 .f32)
    (l : Vec Ideal S1024x1 .f32) (r : Fin 1024) (u : Fin 1) :
    k0_pay6 (F := Ideal) xi xj a bb l (ix2 r u) = l (ix2 r u) + ∑ k : Fin 1024, wBlk xi xj a bb r k := by
  unfold k0_pay6
  rw [shapeCast_self]
  show l (ix2 r u) + shapeCast S1024x1 (multiReduction .add [1] S1024 (k0_pay5 (F := Ideal) xi xj a bb) 0x00000000#32 _ _ _) _ (ix2 r u) = _
  rw [cast_col]
  refine congrArg (l (ix2 r u) + ·) ((Cert.LibAxisSum.sum_last (n := 1024) (d := 1024) (k0_pay5 (F := Ideal) xi xj a bb) 0x00000000#32 _ _ _ r).trans ?_)
  exact Finset.sum_congr rfl fun k _ => pay5_apply xi xj a bb r k

/-- The weighted sum advanced by one block. -/
theorem pay7_apply (xi xj : Vec Ideal S1024x512 .bf16) (a : Vec Ideal S1024x1 .f32) (bb : Vec Ideal S1x1024 .f32)
    (acc : Vec Ideal S1024x512 .f32) (r : Fin 1024) (d : Fin 512) :
    k0_pay7 (F := Ideal) xi xj a bb acc (ix2 r d) = acc (ix2 r d) + ∑ k : Fin 1024, wBlk xi xj a bb r k * xj (ix2 k d) := by
  unfold k0_pay7 k0_pay4
  simp only [shapeCast_self]
  show acc (ix2 r d) + matmul (F := Ideal) dot_S1024x1024_S1024x512_S1024x512_1_0_0_1_n_n none
      (truncf .bf16 (k0_pay5 (F := Ideal) xi xj a bb) _) xj (constant S1024x512 .f32 0x00000000#32) (ix2 r d) = _
  refine congrArg (acc (ix2 r d) + ·) ?_
  refine (Cert.LibDense.matmul_plain (M := 1024) (K := 1024) (N := 512) _ xj (ix2 r d)).trans ?_
  unfold Cert.LibDense.prod
  exact Finset.sum_congr rfl fun k _ => congrArg (· * xj (ix2 k d)) (pay5_apply xi xj a bb r k)

/-- The output block: the quotient, the layer weights, the bias row. -/
theorem pay1_apply (acc : Vec Ideal S1024x512 .f32) (l : Vec Ideal S1024x1 .f32) (wT : Vec Ideal S512x512 .bf16)
    (bias : Vec Ideal S1x512 .f32) (r : Fin 1024) (o : Fin 512) :
    k0_pay1 (F := Ideal) acc l wT bias (ix2 r o)
      = (∑ d : Fin 512, Ideal.div (acc (ix2 r d)) (l (ix2 r 0) + Cert.Spec.eps) * wT (ix2 d o)) + bias (ix2 0 o) := by
  unfold k0_pay1
  simp only [shapeCast_self]
  show matmul (F := Ideal) dot_S1024x512_S512x512_S1024x512_1_0_0_1_n_n none
      (truncf (F := Ideal) .bf16 (divf (F := Ideal) acc (broadcastTo (s := S1024x1) S1024x512 (addf (F := Ideal) l (broadcast S1024x1 (Scalar.ofBits (F := Ideal) .f32 0x322BCC77#32))) _)) _) wT
      (constant S1024x512 .f32 0x00000000#32) (ix2 r o) + broadcastTo S1024x512 bias _ (ix2 r o) = _
  rw [broadcastTo_1b_ab_apply]
  refine congrArg (· + bias (ix2 0 o)) ?_
  refine (Cert.LibDense.matmul_plain (M := 1024) (K := 512) (N := 512) _ wT (ix2 r o)).trans ?_
  unfold Cert.LibDense.prod
  refine Finset.sum_congr rfl fun d _ => congrArg (· * wT (ix2 d o)) ?_
  show Ideal.div (acc (ix2 r d)) (broadcastTo (s := S1024x1) S1024x512 (addf (F := Ideal) l (broadcast S1024x1 (Scalar.ofBits (F := Ideal) .f32 0x322BCC77#32))) _ (ix2 r d)) = _
  rw [col_bcast (Or.inr trivial)]
  rfl

end Cert.KernelIdeal.PayIdx

end
-- ==== Proof.Blocks.lean ====
/-
  The blocks the body sees at a grid point, in the specification's terms.

  The grid has 8 × 8 points, point `t` at row block `t / 8` and column block `t % 8`; a row block is 1024
  consecutive rows of the [8192, 512] input.  At point `t` the body sees rows `1024 · (t / 8) + r` of the scaled input
  and of the scaled squared norms, rows `1024 · (t % 8) + k` of the input and of the scaled squared norms, the whole
  transposed weight matrix and the bias row.  So its [1024, 1024] weights are the specification's weights between
  row `1024 · (t / 8) + r` and row `1024 · (t % 8) + k`.
-/
import proofs.«172829_j24429773979648_2_alg».proof.Proof.HostArrays
import proofs.«172829_j24429773979648_2_alg».proof.Proof.PayIdx

noncomputable section

namespace Cert.KernelIdeal.Blocks

open Cert.KernelIdeal Cert.KernelIdeal.Gen Idealize.ShloMosaic Idealize.ShloMosaic.TcCoe Idealize.ShloMosaic.ValueIdx Idealize.SL.Sem
open Cert.KernelIdeal.HostArrays (xs)

variable (m : (ℓ : Loc nD τ sig) → Buf (Elt Ideal) ℓ) (c : Dev nD)

/-- Row `k` of row block `a`: row `1024 · a + k` (reduced modulo 8192, so that it is a row for every `a`). -/
def rowN (a : ℕ) (k : Fin 1024) : Fin 8192 := ⟨(a * 1024 + k.val) % 8192, Nat.mod_lt _ (by decide)⟩

theorem rowN_val (a : ℕ) (ha : a < 8) (k : Fin 1024) : (rowN a k).val = a * 1024 + k.val := by
  have := k.isLt
  show (a * 1024 + k.val) % 8192 = _
  omega

/-- The windows' block indices at a point, decided over the grid. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 8 ∧ win0_6.index t (1 : Fin 2) = 0 :=
  (by decide +kernel : ∀ t : Fin grid0.N, _)

theorem t_lt (t : Fin cfg0.N) : t.val < 64 := lt_of_lt_of_eq t.isLt (show cfg0.N = 64 from N_0)

/-- The scaled row block. -/
theorem blk0 (t : Fin cfg0.N) (r : Fin 1024) (d : Fin 512) :
    (iblk m c 0 t : Vec Ideal S1024x512 .bf16) (ix2 r d) = xs m c (rowN (t.val / 8) r) d * Cert.Spec.cpos := by
  have ht := t_lt t
  obtain ⟨e0, e1, -⟩ := idx_facts t
  unfold iblk
  rw [View.read_apply]
  show V m c main_v10 _ = _
  refine (congrArg (V m c main_v10) (?_ : _ = ix2 (rowN (t.val / 8) r) d)).trans (HostArrays.V_v10 m c _ d)
  funext a
  apply Fin.ext
  match a with
  | ⟨0, _⟩ =>
    show win0_0.index t (0 : Fin 2) * 1024 + 1 * r.val = (rowN (t.val / 8) r).val
    rw [e0, rowN_val _ (by omega)]; omega
  | ⟨1, _⟩ =>
    show win0_0.index t (1 : Fin 2) * 512 + 1 * d.val = d.val
    rw [e1]; omega

/-- The column block's rows. -/
theorem blk1 (t : Fin cfg0.N) (k : Fin 1024) (d : Fin 512) :
    (iblk m c 1 t : Vec Ideal S1024x512 .bf16) (ix2 k d) = xs m c (rowN (t.val % 8) k) d := by
  have ht := t_lt t
  obtain ⟨-, -, e0, e1, -⟩ := idx_facts t
  unfold iblk
  rw [View.read_apply]
  show V m c main_v11 _ = _
  refine (congrArg (V m c main_v11) (?_ : _ = ix2 (rowN (t.val % 8) k) d)).trans (HostArrays.V_v11 m c _ d)
  funext a
  apply Fin.ext
  match a with
  | ⟨0, _⟩ =>
    show win0_1.index t (0 : Fin 2) * 1024 + 1 * k.val = (rowN (t.val % 8) k).val
    rw [e0, rowN_val _ (by omega)]; omega
  | ⟨1, _⟩ =>
    show win0_1.index t (1 : Fin 2) * 512 + 1 * d.val = d.val
    rw [e1]; omega

/-- The row block's scaled squared norms. -/
theorem blk2 (t : Fin cfg0.N) (r : Fin 1024) (u : Fin 1) :
    (iblk m c 2 t : Vec Ideal S1024x1 .f32) (ix2 r u) = Cert.Spec.sq (xs m c) (rowN (t.val / 8) r) * Cert.Spec.cneg := by
  have ht := t_lt t
  obtain ⟨-, -, -, -, e0, e1, -⟩ := idx_facts t
  unfold iblk
  rw [View.read_apply]
  show V m c main_v4 _ = _
  refine (congrArg (V m c main_v4) (?_ : _ = ix2 (rowN (t.val / 8) r) u)).trans (HostArrays.V_v4 m c _ u)
  funext a
  apply Fin.ext
  match a with
  | ⟨0, _⟩ =>
    show win0_2.index t (0 : Fin 2) * 1024 + 1 * r.val = (rowN (t.val / 8) r).val
    rw [e0, rowN_val _ (by omega)]; omega
  | ⟨1, _⟩ =>
    show win0_2.index t (1 : Fin 2) * 1 + 1 * u.val = u.val
    rw [e1]; omega

/-- The column block's scaled squared norms. -/
theorem blk3 (t : Fin cfg0.N) (u : Fin 1) (k : Fin 1024) :
    (iblk m c 3 t : Vec Ideal S1x1024 .f32) (ix2 u k) = Cert.Spec.sq (xs m c) (rowN (t.val % 8) k) * Cert.Spec.cneg := by
  have ht := t_lt t
  obtain ⟨-, -, -, -, -, -, e0, e1, -⟩ := idx_facts t
  unfold iblk
  rw [View.read_apply]
  show V m c main_v7 _ = _
  refine (congrArg (V m c main_v7) (?_ : _ = ix2 u (rowN (t.val % 8) k))).trans (HostArrays.V_v7 m c u _)
  funext a
  apply Fin.ext
  match a with
  | ⟨0, _⟩ =>
    show win0_3.index t (0 : Fin 2) * 1 + 1 * u.val = u.val
    rw [e0]; omega
  | ⟨1, _⟩ =>
    show win0_3.index t (1 : Fin 2) * 1024 + 1 * k.val = (rowN (t.val % 8) k).val
    rw [e1, rowN_val _ (by omega)]; omega

/-- The transposed layer weights, whole at every point. -/
theorem blk4 (t : Fin cfg0.N) (d o : Fin 512) :
    (iblk m c 4 t : Vec Ideal S512x512 .bf16) (ix2 d o) = m ((c : Thread nD τ).loc main_arg1) (ix2 o d) := by
  obtain ⟨-, -, -, -, -, -, -, -, e0, e1, -⟩ := idx_facts t
  unfold iblk
  rw [View.read_apply]
  show V m c main_v13 _ = _
  refine (congrArg (V m c main_v13) (?_ : _ = ix2 d o)).trans (HostArrays.V_v13 m c d o)
  funext a
  apply Fin.ext
  match a with
  | ⟨0, _⟩ =>
    show win0_4.index t (0 : Fin 2) * 512 + 1 * d.val = d.val
    rw [e0]; omega
  | ⟨1, _⟩ =>
    show win0_4.index t (1 : Fin 2) * 512 + 1 * o.val = o.val
    rw [e1]; omega

/-- The bias row, whole at every point. -/
theorem blk5 (t : Fin cfg0.N) (u : Fin 1) (o : Fin 512) :
    (iblk m c 5 t : Vec Ideal S1x512 .f32) (ix2 u o) = m ((c : Thread nD τ).loc main_arg2) (ix1 o) := by
  obtain ⟨-, -, -, -, -, -, -, -, -, -, e0, e1, -⟩ := idx_facts t
  unfold iblk
  rw [View.read_apply]
  show V m c main_v14 _ = _
  refine (congrArg (V m c main_v14) (?_ : _ = ix2 u o)).trans (HostArrays.V_v14 m c u o)
  funext a
  apply Fin.ext
  match a with
  | ⟨0, _⟩ =>
    show win0_5.index t (0 : Fin 2) * 1 + 1 * u.val = u.val
    rw [e0]; omega
  | ⟨1, _⟩ =>
    show win0_5.index t (1 : Fin 2) * 512 + 1 * o.val = o.val
    rw [e1]; omega

/-- The body's weights at point `t` are the specification's, between the row block's and the column block's rows. -/
theorem w_at (t : Fin cfg0.N) (r k : Fin 1024) :
    PayIdx.wBlk (iblk m c 0 t) (iblk m c 1 t) (iblk m c 2 t) (iblk m c 3 t) r k
      = Cert.Spec.kW (xs m c) (rowN (t.val / 8) r) (rowN (t.val % 8) k) := by
  unfold PayIdx.wBlk Cert.Spec.kW Cert.Spec.kArg
  rw [blk2 m c t r 0, blk3 m c t 0 k]
  refine congrArg (fun s => Ideal.exp (min ((Cert.Spec.sq (xs m c) (rowN (t.val / 8) r) * Cert.Spec.cneg
    + Cert.Spec.sq (xs m c) (rowN (t.val % 8) k) * Cert.Spec.cneg) + s) Cert.Spec.z)) ?_
  exact Finset.sum_congr rfl fun d _ => congrArg₂ (· * ·) (blk0 m c t r d) (blk1 m c t k d)

end Cert.KernelIdeal.Blocks

end
-- ==== Proof.Pieces.lean ====
/-
  What the body leaves in its two running buffers and in its output block, case by case, as the body's own
  arithmetic: at the first step of a row block the buffers are reset to zero and advanced, at the middle steps they
  are advanced from what the step before left, at the last step they are advanced and the output block is computed
  from them.  Every store covers its whole buffer and every load reads a whole buffer, so what is left is the stored
  value of the loaded values; this holds for any reading of the floats.
-/
import proofs.«172829_j24429773979648_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## What each case of the body leaves, as the body's arithmetic

  The body keeps two running quantities across the inner grid axis: a [1024, 512] weighted sum and a [1024, 1]
  normaliser.  At the first inner step both are reset to zero and then advanced; at the middle steps they are advanced
  from what the step before left; at the last step they are advanced and the output block is computed from them. -/

/-- First step: the weighted sum is reset to zero, read back and advanced. -/
theorem accA (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i) (x0 : Vec F S1024x512 .bf16) (x1 : Vec F S1024x512 .bf16) (x2 : Vec F S1024x1 .f32) (x3 : Vec F S1x1024 .f32) (x4 : Vec F S512x512 .bf16) (x5 : Vec F S1x512 .f32) :
    sout0_A_0 c i arg2 harg2 arg3 harg3 arg4 harg4 arg5 harg5 arg6 harg6 arg7 harg7 arg8 harg8 arg9 harg9 arg10 harg10 hc0 hc1 x0 x1 x2 x3 x4 x5 = k0_pay7 x0 x1 x2 x3 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x512) hz]
  simp only [View.readCov_unit_zero (S := S1024x512) _ hz, View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x512) hz, View.ld_unit_zero (S := S1024x1) hz, View.ld_unit_zero (S := S1x1024) hz, View.ld_unit_zero (S := S512x512) hz, View.ld_unit_zero (S := S1x512) hz]

/-- First step: the normaliser is reset to zero, read back and advanced. -/
theorem lA (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i) (x0 : Vec F S1024x512 .bf16) (x1 : Vec F S1024x512 .bf16) (x2 : Vec F S1024x1 .f32) (x3 : Vec F S1x1024 .f32) (x4 : Vec F S512x512 .bf16) (x5 : Vec F S1x512 .f32) :
    sout0_A_1 c i arg2 harg2 arg3 harg3 arg4 harg4 arg5 harg5 arg6 harg6 arg7 harg7 arg8 harg8 arg9 harg9 arg10 harg10 hc0 hc1 x0 x1 x2 x3 x4 x5 = k0_pay6 x0 x1 x2 x3 (k0_pay3 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1) hz]
  simp only [View.readCov_unit_zero (S := S1024x512) _ hz, View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x512) hz, View.ld_unit_zero (S := S1024x1) hz, View.ld_unit_zero (S := S1x1024) hz, View.ld_unit_zero (S := S512x512) hz, View.ld_unit_zero (S := S1x512) hz]

/-- Middle step: the weighted sum advanced from what the step before left. -/
theorem accB (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i) (x0 : Vec F S1024x512 .bf16) (x1 : Vec F S1024x512 .bf16) (x2 : Vec F S1024x1 .f32) (x3 : Vec F S1x1024 .f32) (x4 : Vec F S512x512 .bf16) (x5 : Vec F S1x512 .f32) (xs0 : Vec F S1024x512 .f32) (xs1 : Vec F S1024x1 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = k0_pay7 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz]
  simp only [View.readCov_unit_zero (S := S1024x512) _ hz, View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x512) hz, View.ld_unit_zero (S := S1024x1) hz, View.ld_unit_zero (S := S1x1024) hz, View.ld_unit_zero (S := S512x512) hz, View.ld_unit_zero (S := S1x512) hz]

/-- Middle step: the normaliser advanced from what the step before left. -/
theorem lB (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i) (x0 : Vec F S1024x512 .bf16) (x1 : Vec F S1024x512 .bf16) (x2 : Vec F S1024x1 .f32) (x3 : Vec F S1x1024 .f32) (x4 : Vec F S512x512 .bf16) (x5 : Vec F S1x512 .f32) (xs0 : Vec F S1024x512 .f32) (xs1 : Vec F S1024x1 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = k0_pay6 x0 x1 x2 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz]
  simp only [View.readCov_unit_zero (S := S1024x512) _ hz, View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x512) hz, View.ld_unit_zero (S := S1024x1) hz, View.ld_unit_zero (S := S1x1024) hz, View.ld_unit_zero (S := S512x512) hz, View.ld_unit_zero (S := S1x512) hz]

/-- Last step: the weighted sum advanced from what the step before left. -/
theorem accC (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x512 .bf16) (x1 : Vec F S1024x512 .bf16) (x2 : Vec F S1024x1 .f32) (x3 : Vec F S1x1024 .f32) (x4 : Vec F S512x512 .bf16) (x5 : Vec F S1x512 .f32) (xs0 : Vec F S1024x512 .f32) (xs1 : Vec F S1024x1 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = k0_pay7 x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readCov_unit_zero (S := S1024x512) _ hz, View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x512) hz, View.ld_unit_zero (S := S1024x1) hz, View.ld_unit_zero (S := S1x1024) hz, View.ld_unit_zero (S := S512x512) hz, View.ld_unit_zero (S := S1x512) hz]

/-- Last step: the normaliser advanced from what the step before left. -/
theorem lC (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x512 .bf16) (x1 : Vec F S1024x512 .bf16) (x2 : Vec F S1024x1 .f32) (x3 : Vec F S1x1024 .f32) (x4 : Vec F S512x512 .bf16) (x5 : Vec F S1x512 .f32) (xs0 : Vec F S1024x512 .f32) (xs1 : Vec F S1024x1 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = k0_pay6 x0 x1 x2 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readCov_unit_zero (S := S1024x512) _ hz, View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x512) hz, View.ld_unit_zero (S := S1024x1) hz, View.ld_unit_zero (S := S1x1024) hz, View.ld_unit_zero (S := S512x512) hz, View.ld_unit_zero (S := S1x512) hz]

/-- Last step: the output block is the linear layer on the quotient of the two advanced quantities. -/
theorem outC (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x512 .bf16) (x1 : Vec F S1024x512 .bf16) (x2 : Vec F S1024x1 .f32) (x3 : Vec F S1x1024 .f32) (x4 : Vec F S512x512 .bf16) (x5 : Vec F S1x512 .f32) (xs0 : Vec F S1024x512 .f32) (xs1 : Vec F S1024x1 .f32) :
    out0_C_6 c i arg2 harg2 arg3 harg3 arg4 harg4 arg5 harg5 arg6 harg6 arg7 harg7 arg8 harg8 arg9 harg9 arg10 harg10 hc0 hc1 x0 x1 x2 x3 x4 x5 xs0 xs1 = k0_pay1 (k0_pay7 x0 x1 x2 x3 xs0) (k0_pay6 x0 x1 x2 x3 xs1) x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readCov_unit_zero (S := S1024x512) _ hz, View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x512) hz, View.ld_unit_zero (S := S1024x1) hz, View.ld_unit_zero (S := S1x1024) hz, View.ld_unit_zero (S := S512x512) hz, View.ld_unit_zero (S := S1x512) hz]

end Cert.KernelIdeal.Pieces

end
-- ==== Proof.Accum.lean ====
/-
  The two running quantities after every grid point.

  Along the inner grid axis the body keeps a [1024, 512] weighted sum and a [1024, 1] normaliser.  After the point at
  row block `i` and column block `j` they hold, at row `r`, the zero word plus the sums over the column blocks
  `0, …, j` of the block's weighted rows and of the block's weights — by induction along the grid: the first point
  of a row block starts from zero, every other point adds its block to what the point before left.
-/
import proofs.«172829_j24429773979648_2_alg».proof.Proof.Blocks
import proofs.«172829_j24429773979648_2_alg».proof.Proof.Pieces

noncomputable section

namespace Cert.KernelIdeal.Accum

open Cert.KernelIdeal Cert.KernelIdeal.Gen Idealize.ShloMosaic Idealize.ShloMosaic.TcCoe Idealize.ShloMosaic.ValueIdx Idealize.SL.Sem
open Cert.KernelIdeal.HostArrays (xs)
open Cert.KernelIdeal.Blocks (rowN)

variable (m : (ℓ : Loc nD τ sig) → Buf (Elt Ideal) ℓ) (c : Dev nD)

/-- The weighted rows of the column blocks `0, …, J - 1`, at row `R` and feature `d`. -/
def accSum (x : Fin 8192 → Fin 512 → EReal) (R : Fin 8192) (d : Fin 512) (J : ℕ) : EReal :=
  ∑ j ∈ Finset.range J, ∑ k : Fin 1024, Cert.Spec.kW x R (rowN j k) * x (rowN j k) d

/-- The weights of the column blocks `0, …, J - 1`, at row `R`. -/
def lSum (x : Fin 8192 → Fin 512 → EReal) (R : Fin 8192) (J : ℕ) : EReal :=
  ∑ j ∈ Finset.range J, ∑ k : Fin 1024, Cert.Spec.kW x R (rowN j k)

/-! ## What each case leaves, as vectors -/

theorem stepA (t : Fin cfg0.N) (h0 : t.val % 8 = 0) (h1 : ¬t.val % 8 = 7) :
    (outsAt0 m c t.val t.isLt).2.1 = k0_pay7 (iblk m c 0 t) (iblk m c 1 t) (iblk m c 2 t) (iblk m c 3 t) (k0_pay2 (F := Ideal))
    ∧ (outsAt0 m c t.val t.isLt).2.2 = k0_pay6 (iblk m c 0 t) (iblk m c 1 t) (iblk m c 2 t) (iblk m c 3 t) (k0_pay3 (F := Ideal)) := by
  rw [outsAt0_A m c t h0 h1]
  dsimp only
  exact ⟨Pieces.accA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
    Pieces.lA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)⟩

theorem stepB (t : Fin cfg0.N) (h0 : ¬t.val % 8 = 0) (h1 : ¬t.val % 8 = 7) :
    (outsAt0 m c t.val t.isLt).2.1 = k0_pay7 (iblk m c 0 t) (iblk m c 1 t) (iblk m c 2 t) (iblk m c 3 t) (outsAt0 m c (t.val - 1) (Nat.lt_of_le_of_lt (Nat.sub_le _ _) t.isLt)).2.1
    ∧ (outsAt0 m c t.val t.isLt).2.2 = k0_pay6 (iblk m c 0 t) (iblk m c 1 t) (iblk m c 2 t) (iblk m c 3 t) (outsAt0 m c (t.val - 1) (Nat.lt_of_le_of_lt (Nat.sub_le _ _) t.isLt)).2.2 := by
  rw [outsAt0_B m c t h0 h1]
  dsimp only
  exact ⟨Pieces.accB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2,
    Pieces.lB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2⟩

theorem stepC (t : Fin cfg0.N) (h0 : ¬t.val % 8 = 0) (h1 : t.val % 8 = 7) :
    (outsAt0 m c t.val t.isLt).2.1 = k0_pay7 (iblk m c 0 t) (iblk m c 1 t) (iblk m c 2 t) (iblk m c 3 t) (outsAt0 m c (t.val - 1) (Nat.lt_of_le_of_lt (Nat.sub_le _ _) t.isLt)).2.1
    ∧ (outsAt0 m c t.val t.isLt).2.2 = k0_pay6 (iblk m c 0 t) (iblk m c 1 t) (iblk m c 2 t) (iblk m c 3 t) (outsAt0 m c (t.val - 1) (Nat.lt_of_le_of_lt (Nat.sub_le _ _) t.isLt)).2.2
    ∧ (outsAt0 m c t.val t.isLt).1 = k0_pay1 (k0_pay7 (iblk m c 0 t) (iblk m c 1 t) (iblk m c 2 t) (iblk m c 3 t) (outsAt0 m c (t.val - 1) (Nat.lt_of_le_of_lt (Nat.sub_le _ _) t.isLt)).2.1)
        (k0_pay6 (iblk m c 0 t) (iblk m c 1 t) (iblk m c 2 t) (iblk m c 3 t) (outsAt0 m c (t.val - 1) (Nat.lt_of_le_of_lt (Nat.sub_le _ _) t.isLt)).2.2) (iblk m c 4 t) (iblk m c 5 t) := by
  rw [outsAt0_C m c t h0 h1]
  dsimp only
  exact ⟨Pieces.accC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2,
    Pieces.lC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2,
    Pieces.outC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2⟩

/-! ## One point's advance, entry by entry -/

/-- From quantities holding the column blocks `0, …, J - 1` with `J = t % 8`, the body at point `t` leaves the column
    blocks `0, …, J`. -/
theorem adv (t : Fin cfg0.N) (acc : Vec Ideal S1024x512 .f32) (l : Vec Ideal S1024x1 .f32) (J : ℕ) (hJ : J = t.val % 8)
    (hacc : ∀ r d, acc (ix2 r d) = Cert.Spec.z + accSum (xs m c) (rowN (t.val / 8) r) d J)
    (hl : ∀ r u, l (ix2 r u) = Cert.Spec.z + lSum (xs m c) (rowN (t.val / 8) r) J) :
    (∀ r d, k0_pay7 (F := Ideal) (iblk m c 0 t) (iblk m c 1 t) (iblk m c 2 t) (iblk m c 3 t) acc (ix2 r d)
        = Cert.Spec.z + accSum (xs m c) (rowN (t.val / 8) r) d (J + 1))
    ∧ (∀ r u, k0_pay6 (F := Ideal) (iblk m c 0 t) (iblk m c 1 t) (iblk m c 2 t) (iblk m c 3 t) l (ix2 r u)
        = Cert.Spec.z + lSum (xs m c) (rowN (t.val / 8) r) (J + 1)) := by
  subst hJ
  refine ⟨fun r d => ?_, fun r u => ?_⟩
  · refine (PayIdx.pay7_apply _ _ _ _ acc r d).trans ?_
    rw [hacc r d]
    unfold accSum
    rw [Finset.sum_range_succ, ← add_assoc]
    refine congrArg (Cert.Spec.z + accSum (xs m c) (rowN (t.val / 8) r) d (t.val % 8) + ·) ?_
    exact Finset.sum_congr rfl fun k _ => congrArg₂ (· * ·) (Blocks.w_at m c t r k) (Blocks.blk1 m c t k d)
  · refine (PayIdx.pay6_apply _ _ _ _ l r u).trans ?_
    rw [hl r u]
    unfold lSum
    rw [Finset.sum_range_succ, ← add_assoc]
    refine congrArg (Cert.Spec.z + lSum (xs m c) (rowN (t.val / 8) r) (t.val % 8) + ·) ?_
    exact Finset.sum_congr rfl fun k _ => Blocks.w_at m c t r k

/-! ## After every point -/

/-- After point `n` the two quantities hold the column blocks `0, …, n % 8` of row block `n / 8`. -/
theorem scratch_eq : ∀ (n : ℕ) (h : n < cfg0.N),
    (∀ r d, (outsAt0 m c n h).2.1 (ix2 r d) = Cert.Spec.z + accSum (xs m c) (rowN (n / 8) r) d (n % 8 + 1))
    ∧ (∀ r u, (outsAt0 m c n h).2.2 (ix2 r u) = Cert.Spec.z + lSum (xs m c) (rowN (n / 8) r) (n % 8 + 1)) := by
  intro n
  induction n with
  | zero =>
    intro h
    have s := stepA m c ⟨0, h⟩ rfl (show ¬(0 : ℕ) % 8 = 7 by decide)
    have a := adv m c ⟨0, h⟩ (k0_pay2 (F := Ideal)) (k0_pay3 (F := Ideal)) 0 rfl
      (fun r d => by rw [PayIdx.pay2_apply]; unfold accSum; rw [Finset.range_zero, Finset.sum_empty, add_zero])
      (fun r u => by rw [PayIdx.pay3_apply]; unfold lSum; rw [Finset.range_zero, Finset.sum_empty, add_zero])
    exact ⟨fun r d => (congrFun s.1 (ix2 r d)).trans (a.1 r d), fun r u => (congrFun s.2 (ix2 r u)).trans (a.2 r u)⟩
  | succ n ih =>
    intro h
    have hN : n + 1 < 64 := lt_of_lt_of_eq h (show cfg0.N = 64 from N_0)
    by_cases h0 : (n + 1) % 8 = 0
    · have h1 : ¬(n + 1) % 8 = 7 := by omega
      have s := stepA m c ⟨n + 1, h⟩ h0 h1
      have a := adv m c ⟨n + 1, h⟩ (k0_pay2 (F := Ideal)) (k0_pay3 (F := Ideal)) 0 h0.symm
        (fun r d => by rw [PayIdx.pay2_apply]; unfold accSum; rw [Finset.range_zero, Finset.sum_empty, add_zero])
        (fun r u => by rw [PayIdx.pay3_apply]; unfold lSum; rw [Finset.range_zero, Finset.sum_empty, add_zero])
      rw [h0]
      exact ⟨fun r d => (congrFun s.1 (ix2 r d)).trans (a.1 r d), fun r u => (congrFun s.2 (ix2 r u)).trans (a.2 r u)⟩
    · have hq : (n + 1) / 8 = n / 8 := by omega
      have hm : n % 8 + 1 = (n + 1) % 8 := by omega
      have ihn := ih (Nat.lt_of_succ_lt h)
      have a := adv m c ⟨n + 1, h⟩ (outsAt0 m c n (Nat.lt_of_succ_lt h)).2.1 (outsAt0 m c n (Nat.lt_of_succ_lt h)).2.2 (n % 8 + 1) hm
        (fun r d => by rw [show (⟨n + 1, h⟩ : Fin cfg0.N).val / 8 = n / 8 from hq]; exact ihn.1 r d)
        (fun r u => by rw [show (⟨n + 1, h⟩ : Fin cfg0.N).val / 8 = n / 8 from hq]; exact ihn.2 r u)
      rw [← hm]
      by_cases h1 : (n + 1) % 8 = 7
      · have s := stepC m c ⟨n + 1, h⟩ h0 h1
        exact ⟨fun r d => (congrFun s.1 (ix2 r d)).trans (a.1 r d), fun r u => (congrFun s.2.1 (ix2 r u)).trans (a.2 r u)⟩
      · have s := stepB m c ⟨n + 1, h⟩ h0 h1
        exact ⟨fun r d => (congrFun s.1 (ix2 r d)).trans (a.1 r d), fun r u => (congrFun s.2 (ix2 r u)).trans (a.2 r u)⟩

end Cert.KernelIdeal.Accum

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.Final.lean ====
/-
  The result array.

  Only the last point of each row block writes the output block back; by then the two running quantities hold all
  eight column blocks, that is the sums over all 8192 rows, so the block is the linear layer on their quotient: rows
  `1024 · i, …, 1024 · i + 1023` of the specification's first arrangement.  The eight row blocks tile the [8192, 512]
  result, so the whole array ends holding it.
-/
import proofs.«172829_j24429773979648_2_alg».proof.Proof.Accum
import proofs.«172829_j24429773979648_2_alg».proof.Proof.LibSumBlocks
import proofs.«172829_j24429773979648_2_alg».proof.Proof.Gen.KernelIdeal.Value

noncomputable section

namespace Cert.KernelIdeal.Final

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.HostArrays (xs)
open Cert.KernelIdeal.Blocks (rowN)
open Cert.KernelIdeal.Accum (accSum lSum)

variable (m : (ℓ : Loc nD τ sig) → Buf (Elt Ideal) ℓ) (c : Dev nD)

/-- The result array: the specification's first arrangement of the three argument arrays. -/
def G : Buf (Elt Ideal) ((c : Thread nD τ).loc main_v15) := fun i =>
  Cert.Spec.kOut (xs m c) (fun o d => m ((c : Thread nD τ).loc main_arg1) (ix2 o d))
    (fun o => m ((c : Thread nD τ).loc main_arg2) (ix1 o)) (i 0) (i 1)

/-! ## Eight column blocks of 1024 rows are all 8192 rows -/

theorem rowN_eq (j : Fin 8) (k : Fin 1024) (h : j.val * 1024 + k.val < 8192) : rowN j.val k = ⟨j.val * 1024 + k.val, h⟩ :=
  Fin.ext (Blocks.rowN_val _ j.isLt k)

theorem accSum_full (x : Fin 8192 → Fin 512 → EReal) (R : Fin 8192) (d : Fin 512) :
    accSum x R d 8 = ∑ n : Fin 8192, Cert.Spec.kW x R n * x n d := by
  unfold accSum
  rw [Cert.SumBlocks.sum_fin_blocks 8 1024 (by norm_num) (fun n : Fin 8192 => Cert.Spec.kW x R n * x n d), Finset.sum_range]
  refine Finset.sum_congr rfl fun j _ => Finset.sum_congr rfl fun k _ => ?_
  rw [rowN_eq j k (Cert.SumBlocks.block_lt j k)]

theorem lSum_full (x : Fin 8192 → Fin 512 → EReal) (R : Fin 8192) :
    lSum x R 8 = ∑ n : Fin 8192, Cert.Spec.kW x R n := by
  unfold lSum
  rw [Cert.SumBlocks.sum_fin_blocks 8 1024 (by norm_num) (fun n : Fin 8192 => Cert.Spec.kW x R n), Finset.sum_range]
  refine Finset.sum_congr rfl fun j _ => Finset.sum_congr rfl fun k _ => ?_
  rw [rowN_eq j k (Cert.SumBlocks.block_lt j k)]

/-! ## What the last point of a row block writes back -/

theorem flushed_eq (t : Fin cfg0.N) (hf : (cfg0.win 6).flush t = true) :
    (dats m 0 c).flushed 6 t = ((cfg0.win 6).blk t).view.read (Elt Ideal) (G m c) := by
  have ht := Blocks.t_lt t
  have h1 : t.val % 8 = 7 := (flush0_6 t).mp hf
  have h0 : ¬t.val % 8 = 0 := by omega
  have h8 : t.val % 8 + 1 = 8 := by omega
  obtain ⟨s1, s2, s3⟩ := Accum.stepC m c t h0 h1
  have sc := Accum.scratch_eq m c t.val t.isLt
  have eo : (outsAt0 m c t.val t.isLt).1 = k0_pay1 (F := Ideal) (outsAt0 m c t.val t.isLt).2.1 (outsAt0 m c t.val t.isLt).2.2
      (iblk m c 4 t) (iblk m c 5 t) := by
    rw [s3, ← s1, ← s2]
  obtain ⟨-, -, -, -, -, -, -, -, -, -, -, -, e0, e1⟩ := Blocks.idx_facts t
  rw [Cert.KernelIdeal.Value.flushed6, eo]
  funext y
  obtain ⟨r, o, rfl⟩ : ∃ (r : Fin 1024) (o : Fin 512), y = ix2 r o := ⟨y 0, y 1, eq_ix2 y⟩
  show k0_pay1 (F := Ideal) (outsAt0 m c t.val t.isLt).2.1 (outsAt0 m c t.val t.isLt).2.2 (iblk m c 4 t) (iblk m c 5 t) (ix2 r o)
    = G m c (((cfg0.win 6).blk t).view.emb (ix2 r o))
  have eidx : ((cfg0.win 6).blk t).view.emb (ix2 r o) = ix2 (rowN (t.val / 8) r) o := by
    funext a
    apply Fin.ext
    match a with
    | ⟨0, _⟩ =>
      show win0_6.index t (0 : Fin 2) * 1024 + 1 * r.val = (rowN (t.val / 8) r).val
      rw [e0, Blocks.rowN_val _ (by omega)]; omega
    | ⟨1, _⟩ =>
      show win0_6.index t (1 : Fin 2) * 512 + 1 * o.val = o.val
      rw [e1]; omega
  rw [eidx]
  refine (PayIdx.pay1_apply _ _ _ _ r o).trans ?_
  have ea : ∀ d : Fin 512, (outsAt0 m c t.val t.isLt).2.1 (ix2 r d) = Cert.Spec.kAcc (xs m c) (rowN (t.val / 8) r) d := fun d => by
    rw [sc.1 r d, h8, accSum_full]; rfl
  have el : (outsAt0 m c t.val t.isLt).2.2 (ix2 r 0) = Cert.Spec.kL (xs m c) (rowN (t.val / 8) r) := by
    rw [sc.2 r 0, h8, lSum_full]; rfl
  show _ = Cert.Spec.kOut (xs m c) (fun o d => m ((c : Thread nD τ).loc main_arg1) (ix2 o d))
    (fun o => m ((c : Thread nD τ).loc main_arg2) (ix1 o)) (rowN (t.val / 8) r) o
  unfold Cert.Spec.kOut Cert.Spec.kY
  refine congrArg₂ (· + ·) (Finset.sum_congr rfl fun d _ => ?_) (Blocks.blk5 m c t 0 o)
  rw [ea d, el]
  exact congrArg (Ideal.div (Cert.Spec.kAcc (xs m c) (rowN (t.val / 8) r) d) (Cert.Spec.kL (xs m c) (rowN (t.val / 8) r) + Cert.Spec.eps) * ·)
    (Blocks.blk4 m c t d o)

/-! ## The row blocks tile the result -/

theorem cover (i : S8192x512.Idx) :
    ∃ t : Fin cfg0.N, (cfg0.win 6).flush t = true ∧ i ∈ ((cfg0.win 6).blk t).view.set := by
  have hi0 : (i 0).val < 8192 := (i 0).isLt
  have hi1 : (i 1).val < 512 := (i 1).isLt
  have hN : cfg0.N = 64 := N_0
  have hlt : 8 * ((i 0).val / 1024) + 7 < cfg0.N := by rw [hN]; omega
  obtain ⟨-, -, -, -, -, -, -, -, -, -, -, -, e0, e1⟩ := Blocks.idx_facts ⟨8 * ((i 0).val / 1024) + 7, hlt⟩
  refine ⟨⟨8 * ((i 0).val / 1024) + 7, hlt⟩, (flush0_6 _).mpr (by show (8 * ((i 0).val / 1024) + 7) % 8 = 7; omega), ?_⟩
  show i ∈ ((View.whole main_v15).slice (win0_6.rect ⟨8 * ((i 0).val / 1024) + 7, hlt⟩)).set
  rw [View.set_slice_whole, Rect.mem_set_unit]
  intro a
  match a with
  | ⟨0, _⟩ =>
    show win0_6.index ⟨8 * ((i 0).val / 1024) + 7, hlt⟩ (0 : Fin 2) * 1024 ≤ (i 0).val
      ∧ (i 0).val < win0_6.index ⟨8 * ((i 0).val / 1024) + 7, hlt⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win0_6.index ⟨8 * ((i 0).val / 1024) + 7, hlt⟩ (1 : Fin 2) * 512 ≤ (i 1).val
      ∧ (i 1).val < win0_6.index ⟨8 * ((i 0).val / 1024) + 7, hlt⟩ (1 : Fin 2) * 512 + 512
    rw [e1]
    omega

/-! ## The array after the run, and the run -/

theorem final : (dats m 0 c).arrAt 6 cfg0.N = G m c :=
  (dats m 0 c).arrAt_eq_of_cover 6 (G m c) (fun t hf => flushed_eq m c t hf) (cover)

/-- Every weakly fair execution ends with the result array at the specification's first arrangement of the argument
    arrays, and the argument arrays unchanged. -/
theorem run (ρ : Dev nD → PrngReg) : θ_run defs (onTc (τ := τ) (main (F := Ideal))) ⟨m, fun _ => 0, ρ⟩ fun r => ∀ c : Dev nD,
      r.2.mem ((c : Thread nD τ).loc main_v15) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Final

end
-- ==== Proof.RefValue.lean ====
/-
  The reference program's result, read at an entry, is the specification's second arrangement
  (clamped squared distance, normalised weights, then the linear layer).

  Each stage of the reference is read at explicit coordinates: a broadcast or a transpose reads its operand at
  a re-arranged index, a contraction is a finite sum over the contracted coordinate, a reduction is the initial
  word plus a finite sum.  The index equations below say what each re-arranged index is in coordinates; after
  them the intermediate quantities are identified one at a time, in the order the specification names them.
-/
import proofs.«172829_j24429773979648_2_alg».proof.Proof.Gen.ReferenceIdeal.Read
import proofs.«172829_j24429773979648_2_alg».proof.Proof.Spec

noncomputable section

namespace Cert.RefValue

open Idealize.ShloMosaic Idealize.ShloMosaic.ValueIdx Cert.ReferenceIdeal Cert.ReferenceIdeal.Read

/-! ## The re-arranged indices, in coordinates -/

theorem e1 (R : Fin 8192) (k : Fin 512) : idx_main_v1 (ix1 R) k = ix2 R k :=
  funext fun a => Fin.ext (by match a with | ⟨0, _⟩ => rfl | ⟨1, _⟩ => rfl)
theorem e2 (R : Fin 8192) (j : Fin 1) : idx_main_v2 (ix2 R j) = ix1 R :=
  funext fun a => Fin.ext (by match a with | ⟨0, _⟩ => rfl)
theorem e3 (j : Fin 1) (n : Fin 8192) : idx_main_v3 (ix2 j n) = ix1 n :=
  funext fun a => Fin.ext (by match a with | ⟨0, _⟩ => rfl)
theorem e4 (R n : Fin 8192) : idx_main_v4 (ix2 R n) = ix2 R (0 : Fin 1) :=
  funext fun a => Fin.ext (by match a with | ⟨0, _⟩ => rfl | ⟨1, _⟩ => rfl)
theorem e5 (R n : Fin 8192) : idx_main_v5 (ix2 R n) = ix2 (0 : Fin 1) n :=
  funext fun a => Fin.ext (by match a with | ⟨0, _⟩ => rfl | ⟨1, _⟩ => rfl)
theorem e7 (d : Fin 512) (n : Fin 8192) : idx_main_v7 (ix2 d n) = ix2 n d :=
  funext fun a => Fin.ext (by match a with | ⟨0, _⟩ => rfl | ⟨1, _⟩ => rfl)
theorem e8l (R n : Fin 8192) (k : Fin 512) : lidx_main_v8 (ix2 R n) k = ix2 R k :=
  funext fun a => Fin.ext (by match a with | ⟨0, _⟩ => rfl | ⟨1, _⟩ => rfl)
theorem e8r (R n : Fin 8192) (k : Fin 512) : ridx_main_v8 (ix2 R n) k = ix2 k n :=
  funext fun a => Fin.ext (by match a with | ⟨0, _⟩ => rfl | ⟨1, _⟩ => rfl)
theorem e18 (R k : Fin 8192) : idx_main_v18 (ix1 R) k = ix2 R k :=
  funext fun a => Fin.ext (by match a with | ⟨0, _⟩ => rfl | ⟨1, _⟩ => rfl)
theorem e19 (R : Fin 8192) (j : Fin 1) : idx_main_v19 (ix2 R j) = ix1 R :=
  funext fun a => Fin.ext (by match a with | ⟨0, _⟩ => rfl)
theorem e22 (R n : Fin 8192) : idx_main_v22 (ix2 R n) = ix2 R (0 : Fin 1) :=
  funext fun a => Fin.ext (by match a with | ⟨0, _⟩ => rfl | ⟨1, _⟩ => rfl)
theorem e24l (R : Fin 8192) (d : Fin 512) (k : Fin 8192) : lidx_main_v24 (ix2 R d) k = ix2 R k :=
  funext fun a => Fin.ext (by match a with | ⟨0, _⟩ => rfl | ⟨1, _⟩ => rfl)
theorem e24r (R : Fin 8192) (d : Fin 512) (k : Fin 8192) : ridx_main_v24 (ix2 R d) k = ix2 k d :=
  funext fun a => Fin.ext (by match a with | ⟨0, _⟩ => rfl | ⟨1, _⟩ => rfl)
theorem e25 (d o : Fin 512) : idx_main_v25 (ix2 d o) = ix2 o d :=
  funext fun a => Fin.ext (by match a with | ⟨0, _⟩ => rfl | ⟨1, _⟩ => rfl)
theorem e26l (R : Fin 8192) (o k : Fin 512) : lidx_main_v26 (ix2 R o) k = ix2 R k :=
  funext fun a => Fin.ext (by match a with | ⟨0, _⟩ => rfl | ⟨1, _⟩ => rfl)
theorem e26r (R : Fin 8192) (o k : Fin 512) : ridx_main_v26 (ix2 R o) k = ix2 k o :=
  funext fun a => Fin.ext (by match a with | ⟨0, _⟩ => rfl | ⟨1, _⟩ => rfl)
theorem e27 (j : Fin 1) (o : Fin 512) : idx_main_v27 (ix2 j o) = ix1 o :=
  funext fun a => Fin.ext (by match a with | ⟨0, _⟩ => rfl)
theorem e28 (R : Fin 8192) (o : Fin 512) : idx_main_v28 (ix2 R o) = ix2 (0 : Fin 1) o :=
  funext fun a => Fin.ext (by match a with | ⟨0, _⟩ => rfl | ⟨1, _⟩ => rfl)

/-! ## The stages, one quantity at a time -/

variable (X : (⟨S8192x512, .f32⟩ : BufTy).Contents (Elt Ideal))

/-- The reference's input as a function of its two coordinates. -/
abbrev xs : Fin 8192 → Fin 512 → EReal := fun R d => X (ix2 R d)

/-- The row reduction of the elementwise square is the squared norm. -/
theorem v1_eq (R : Fin 8192) : val_main_v1 (F := Ideal) X (ix1 R) = Cert.Spec.sq (xs X) R := by
  rw [val_main_v1_apply]
  simp only [val_main_cst_apply, val_main_v0_apply, e1, Ideal.mulf_def, Ideal.ofBits_def]
  rfl

/-- The clamped squared distance: both squared norms are broadcast over the pair `(R, n)`, the Gram entry is the
    contraction of the input with its transpose, and the clamp is against the broadcast zero word. -/
theorem v13_eq (R n : Fin 8192) : val_main_v13 (F := Ideal) X (ix2 R n) = Cert.Spec.rSqd (xs X) R n := by
  simp only [val_main_v13_apply, val_main_v11_apply, val_main_v6_apply, val_main_v4_apply, val_main_v5_apply,
    val_main_v2_apply, val_main_v3_apply, e4, e5, e2, e3, v1_eq, val_main_v10_apply, val_main_v9_apply,
    val_main_cst_0_apply, val_main_v8_apply, e8l, e8r, val_main_v7_apply, e7, val_main_v12_apply,
    val_main_cst_1_apply, Ideal.maximumf_def, Ideal.subf_def, Ideal.addf_def, Ideal.mulf_def, Ideal.ofBits_def]
  rfl

/-- The weight: the clamped squared distance negated, divided by the broadcast word of 2048, exponentiated. -/
theorem v17_eq (R n : Fin 8192) : val_main_v17 (F := Ideal) X (ix2 R n) = Cert.Spec.rW (xs X) R n := by
  simp only [val_main_v17_apply, val_main_v16_apply, val_main_v14_apply, val_main_v15_apply, val_main_cst_2_apply,
    v13_eq, Ideal.hostUnary_exp_def, Ideal.hostDivf_def, Ideal.hostNegf_def, Ideal.negf_def, Ideal.ofBits_def]
  rfl

/-- The normaliser plus the small positive word, at the single column of the `[8192, 1]` stage. -/
theorem v21_eq (R : Fin 8192) :
    val_main_v21 (F := Ideal) X (ix2 R (0 : Fin 1)) = Cert.Spec.rL (xs X) R + Cert.Spec.eps := by
  simp only [val_main_v21_apply, val_main_v19_apply, e19, val_main_v18_apply, e18, v17_eq, val_main_cst_3_apply,
    val_main_v20_apply, val_main_cst_4_apply, Ideal.addf_def, Ideal.ofBits_def]
  rfl

/-- The normalised weight: the weight divided by the broadcast normaliser. -/
theorem v23_eq (R n : Fin 8192) : val_main_v23 (F := Ideal) X (ix2 R n) = Cert.Spec.rP (xs X) R n := by
  simp only [val_main_v23_apply, val_main_v22_apply, e22, v17_eq, v21_eq, Ideal.hostDivf_def]
  rfl

/-- The average: the contraction of the normalised weights with the input. -/
theorem v24_eq (R : Fin 8192) (d : Fin 512) : val_main_v24 (F := Ideal) X (ix2 R d) = Cert.Spec.rY (xs X) R d := by
  simp only [val_main_v24_apply, e24l, e24r, v23_eq]
  rfl

/-- The reference's result at an entry is the second arrangement: the linear layer is the contraction of the
    average with the transposed weight matrix, plus the bias broadcast over the rows. -/
theorem ref_eq (X : (⟨S8192x512, .f32⟩ : BufTy).Contents (Elt Ideal)) (Wt : (⟨S512x512, .f32⟩ : BufTy).Contents (Elt Ideal))
    (B : (⟨S512, .f32⟩ : BufTy).Contents (Elt Ideal)) (R : Fin 8192) (o : Fin 512) :
    val_main_v29 (F := Ideal) X Wt B (ix2 R o)
      = Cert.Spec.rOut (fun R d => X (ix2 R d)) (fun o d => Wt (ix2 o d)) (fun o => B (ix1 o)) R o := by
  simp only [val_main_v29_apply, val_main_v26_apply, e26l, e26r, v24_eq, val_main_v25_apply, e25,
    val_main_v28_apply, e28, val_main_v27_apply, e27, Ideal.addf_def]
  rfl

end Cert.RefValue

end
-- ==== Proof.Algebra.lean ====
/-
  The algebra joining the two arrangements of the specification.

  On a finite input every quantity of both arrangements is a real number, so the comparison is carried out in ℝ
  and transported to the extended reals by the coercion:

  * the exponent of the scaled arrangement is  -(‖x R‖² + ‖x n‖² - 2⟨x R, x n⟩) / 2048  (distribute the two scale
    factors -1/2048 and 1/1024 over the sums);
  * clamping  -s/2048  from above at 0 is the same as clamping  s  from below at 0 and then negating and dividing,
    so the two weights are one positive real  w R n;
  * the normaliser  L = ∑ n, w R n  is positive, and  ε > 0, so dividing by  L + ε  is multiplying by the real
    (L + ε)⁻¹, which distributes over the weighted sum.
-/
import proofs.«172829_j24429773979648_2_alg».proof.Proof.Spec
import Idealize.ShloMosaic.PureOps.Ideal.Laws

noncomputable section

namespace Cert.Algebra

open Idealize.ShloMosaic
open Cert.Spec

/-! ## The literals -/

/-- The zero word denotes the real `0`. -/
theorem z_eq : z = ((0 : ℝ) : EReal) := by
  simp [Ideal.ofBits, Ideal.ieee]

/-- Sign bit set, exponent field 116, empty fraction: `-2⁻¹¹`. -/
theorem cneg_eq : cneg = ((-(1 / 2048) : ℝ) : EReal) := by
  simp [Ideal.ofBits, Ideal.ieee, -EReal.coe_mul]; norm_num

/-- Exponent field 117, empty fraction: `2⁻¹⁰`. -/
theorem cpos_eq : cpos = ((1 / 1024 : ℝ) : EReal) := by
  simp [Ideal.ofBits, Ideal.ieee, -EReal.coe_mul]; norm_num

/-- Exponent field 128, empty fraction: `2`. -/
theorem two_eq : two = ((2 : ℝ) : EReal) := by
  simp [Ideal.ofBits, Ideal.ieee, -EReal.coe_mul]; norm_num

/-- Exponent field 138, empty fraction: `2¹¹`. -/
theorem c2048_eq : c2048 = ((2048 : ℝ) : EReal) := by
  simp [Ideal.ofBits, Ideal.ieee, -EReal.coe_mul]; norm_num

/-- The word of `ε` is a normal number with the sign bit clear: a positive real. -/
theorem eps_pos : ∃ e : ℝ, 0 < e ∧ eps = (e : EReal) := by
  simp [Ideal.ofBits, Ideal.ieee, -EReal.coe_mul]

/-! ## Coercion of finite sums, maxima and minima -/

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it commutes with `max`. -/
theorem coe_max (a b : ℝ) : ((max a b : ℝ) : EReal) = max (a : EReal) (b : EReal) :=
  EReal.coe_strictMono.monotone.map_max

/-- The coercion is monotone, so it commutes with `min`. -/
theorem coe_min (a b : ℝ) : ((min a b : ℝ) : EReal) = min (a : EReal) (b : EReal) :=
  EReal.coe_strictMono.monotone.map_min

/-! ## The real quantities -/

/-- A real matrix read as a matrix of extended reals. -/
def cx (xr : Fin 8192 → Fin 512 → ℝ) (R : Fin 8192) (d : Fin 512) : EReal := (xr R d : EReal)

/-- The squared norm of a row. -/
def sqr (xr : Fin 8192 → Fin 512 → ℝ) (R : Fin 8192) : ℝ := ∑ d : Fin 512, xr R d * xr R d

/-- The inner product of two rows. -/
def ip (xr : Fin 8192 → Fin 512 → ℝ) (R n : Fin 8192) : ℝ := ∑ d : Fin 512, xr R d * xr n d

/-- The squared distance of two rows by the Gram identity (before any clamp). -/
def dist2 (xr : Fin 8192 → Fin 512 → ℝ) (R n : Fin 8192) : ℝ := sqr xr R + sqr xr n - 2 * ip xr R n

/-- The Gaussian weight. -/
def wr (xr : Fin 8192 → Fin 512 → ℝ) (R n : Fin 8192) : ℝ := Real.exp (-(max (dist2 xr R n) 0) / 2048)

/-- The normaliser. -/
def Lr (xr : Fin 8192 → Fin 512 → ℝ) (R : Fin 8192) : ℝ := ∑ n : Fin 8192, wr xr R n

theorem wr_pos (xr : Fin 8192 → Fin 512 → ℝ) (R n : Fin 8192) : 0 < wr xr R n := Real.exp_pos _

theorem Lr_pos (xr : Fin 8192 → Fin 512 → ℝ) (R : Fin 8192) : 0 < Lr xr R :=
  Finset.sum_pos (fun n _ => wr_pos xr R n) ⟨R, Finset.mem_univ R⟩

variable (xr : Fin 8192 → Fin 512 → ℝ)

/-! ## The shared squared norm -/

theorem sq_coe (R : Fin 8192) : Spec.sq (cx xr) R = ((sqr xr R : ℝ) : EReal) := by
  rw [Spec.sq, z_eq, EReal.coe_zero, zero_add, sqr, coe_sum]
  simp only [cx, EReal.coe_mul]

/-! ## The scaled arrangement -/

/-- Clamping `-s/2048` from above at zero is clamping `s` from below at zero first. -/
theorem min_neg_div (s : ℝ) : min (-s / 2048) 0 = -(max s 0) / 2048 := by
  rcases le_total s 0 with h | h
  · rw [max_eq_right h, min_eq_right (by linarith)]; simp
  · rw [max_eq_left h, min_eq_left (by linarith)]

/-- The scaled exponent is minus the squared distance over 2048. -/
theorem kArg_coe (R n : Fin 8192) : kArg (cx xr) R n = ((-(dist2 xr R n) / 2048 : ℝ) : EReal) := by
  have hsum : (∑ d : Fin 512, (cx xr R d * cpos) * cx xr n d)
      = ((∑ d : Fin 512, xr R d * (1 / 1024) * xr n d : ℝ) : EReal) := by
    rw [coe_sum, cpos_eq]
    simp only [cx, EReal.coe_mul]
  have hreal : (∑ d : Fin 512, xr R d * (1 / 1024) * xr n d) = (1 / 1024) * ip xr R n := by
    rw [ip, Finset.mul_sum]
    exact Finset.sum_congr rfl (fun d _ => by ring)
  have hring : sqr xr R * -(1 / 2048) + sqr xr n * -(1 / 2048) + 1 / 1024 * ip xr R n
      = -(dist2 xr R n) / 2048 := by
    rw [dist2]; ring
  rw [kArg, hsum, hreal, sq_coe, sq_coe, cneg_eq, ← EReal.coe_mul, ← EReal.coe_mul, ← EReal.coe_add,
    ← EReal.coe_add, hring]

theorem kW_coe (R n : Fin 8192) : kW (cx xr) R n = ((wr xr R n : ℝ) : EReal) := by
  rw [kW, kArg_coe, z_eq, ← coe_min, Ideal.exp_coe, min_neg_div, wr]

theorem kL_coe (R : Fin 8192) : kL (cx xr) R = ((Lr xr R : ℝ) : EReal) := by
  rw [kL, z_eq, EReal.coe_zero, zero_add, Lr, coe_sum]
  simp only [kW_coe]

theorem kAcc_coe (R : Fin 8192) (d : Fin 512) :
    kAcc (cx xr) R d = ((∑ n : Fin 8192, wr xr R n * xr n d : ℝ) : EReal) := by
  rw [kAcc, z_eq, EReal.coe_zero, zero_add, coe_sum]
  simp only [kW_coe, cx, EReal.coe_mul]

/-! ## The clamped arrangement -/

theorem rSqd_coe (R n : Fin 8192) : rSqd (cx xr) R n = ((max (dist2 xr R n) 0 : ℝ) : EReal) := by
  have hsum : (∑ d : Fin 512, cx xr R d * cx xr n d) = ((ip xr R n : ℝ) : EReal) := by
    rw [ip, coe_sum]
    simp only [cx, EReal.coe_mul]
  rw [rSqd, hsum, sq_coe, sq_coe, two_eq, z_eq, ← EReal.coe_mul, ← EReal.coe_add, ← EReal.coe_sub, ← coe_max,
    dist2]

theorem rW_coe (R n : Fin 8192) : rW (cx xr) R n = ((wr xr R n : ℝ) : EReal) := by
  have hring : -(max (dist2 xr R n) 0) * (1 / 2048) = -(max (dist2 xr R n) 0) / 2048 := by ring
  rw [rW, rSqd_coe, c2048_eq, Ideal.div_coe (by norm_num : (2048 : ℝ) ≠ 0), ← EReal.coe_neg, ← EReal.coe_mul,
    Ideal.exp_coe, hring, wr]

theorem rL_coe (R : Fin 8192) : rL (cx xr) R = ((Lr xr R : ℝ) : EReal) := by
  rw [rL, z_eq, EReal.coe_zero, zero_add, Lr, coe_sum]
  simp only [rW_coe]

/-! ## The averages agree -/

/-- Dividing the weighted sum once is weighting by the normalised weights. -/
theorem kY_eq_rY (R : Fin 8192) (d : Fin 512) : kY (cx xr) R d = rY (cx xr) R d := by
  obtain ⟨e, he, heq⟩ := eps_pos
  have hne : Lr xr R + e ≠ 0 := ne_of_gt (add_pos (Lr_pos xr R) he)
  have hk : kY (cx xr) R d
      = (((∑ n : Fin 8192, wr xr R n * xr n d) * (1 / (Lr xr R + e)) : ℝ) : EReal) := by
    rw [kY, kAcc_coe, kL_coe, heq, ← EReal.coe_add, Ideal.div_coe hne, ← EReal.coe_mul]
  have hr : rY (cx xr) R d
      = ((∑ n : Fin 8192, wr xr R n * (1 / (Lr xr R + e)) * xr n d : ℝ) : EReal) := by
    rw [rY, coe_sum]
    refine Finset.sum_congr rfl (fun n _ => ?_)
    rw [rP, rW_coe, rL_coe, heq, ← EReal.coe_add, Ideal.div_coe hne, EReal.coe_mul, EReal.coe_mul, cx]
  have hreal : (∑ n : Fin 8192, wr xr R n * xr n d) * (1 / (Lr xr R + e))
      = ∑ n : Fin 8192, wr xr R n * (1 / (Lr xr R + e)) * xr n d := by
    rw [Finset.sum_mul]
    exact Finset.sum_congr rfl (fun n _ => by ring)
  rw [hk, hr, hreal]

/-! ## The law -/

/-- On a finite input the two arrangements of the specification give the same result, whatever the weights and
    the bias of the linear layer are. -/
theorem kOut_eq_rOut (x : Fin 8192 → Fin 512 → EReal) (hx : ∀ R d, ∃ r : ℝ, x R d = (r : EReal))
    (W : Fin 512 → Fin 512 → EReal) (b : Fin 512 → EReal) (R : Fin 8192) (o : Fin 512) :
    Cert.Spec.kOut x W b R o = Cert.Spec.rOut x W b R o := by
  choose xr hxr using hx
  have hxe : x = cx xr := by
    funext R d
    exact hxr R d
  subst hxe
  simp only [kOut, rOut, kY_eq_rY]

end Cert.Algebra

end
-- ==== Proof.Finite.lean ====
/-
  Finiteness of the inputs.  The certificate's precondition says that a conjunction of three tests, one per argument
  array, comes out true; each test asks of every entry `a` of its array that `|a| < +∞`, and takes the conjunction over
  all entries.  On the extended reals `|a| = max a (-a)`, which is `⊤` at both infinities, so an entry passing the test
  is neither `⊤` nor `⊥`: it is a real number.  This module reads that consequence back, entry by entry, for each of
  the three arrays.
-/
import proofs.«172829_j24429773979648_2_alg».proof.Defs
import Idealize.ShloMosaic.Lib.ReduceAll
import Idealize.ShloMosaic.Lib.ValueIdx
import Idealize.ShloMosaic.PureOps.Ideal.Laws

noncomputable section

namespace Cert.Finite

open Idealize.ShloMosaic Idealize.SL.Sem

/-- The word with all exponent bits set and no fraction bit denotes `+∞`. -/
theorem ofBits_inf : Ideal.ofBits .f32 0x7F800000#32 = (⊤ : EReal) := by
  simp [Ideal.ofBits, Ideal.ieee]

/-- The result shape of a reduction over every axis has exactly one index. -/
instance : Subsingleton Cert.Pre_finite_inputs.S_.Idx := ⟨fun a b => funext fun d => d.elim0⟩

/-- An extended real whose absolute value `max a (-a)` lies strictly below `⊤` is a real number:
    at `⊤` the maximum is `⊤` through its first argument, at `⊥` through its second (`-⊥ = ⊤`). -/
theorem real_of_abs_lt_top (a : EReal) (h : max a (-a) < ⊤) : ∃ r : ℝ, a = (r : EReal) := by
  induction a using EReal.rec with
  | bot => simp at h
  | coe r => exact ⟨r, rfl⟩
  | top => simp at h

/-- The entry test read back: if comparing `|a|` with the word of `+∞` gives the bit 1, then `a` is real. -/
theorem real_of_test (a : EReal)
    (h : Ideal.cmp .olt (max a (-a)) (Ideal.ofBits .f32 0x7F800000#32) = 1#1) : ∃ r : ℝ, a = (r : EReal) := by
  rw [ofBits_inf] at h
  apply real_of_abs_lt_top
  by_contra hn
  simp [Ideal.cmp, hn] at h

/-- Under the precondition every entry of the first argument array is a real number. -/
theorem x_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S8192x512.Idx) :
    ∃ r : ℝ, m ((c.tc : Thread Cert.KernelIdeal.nD Cert.KernelIdeal.τ).loc Cert.KernelIdeal.main_arg0) i = (r : EReal) := by
  have e := congrFun (h c) ValueIdx.ix0
  dsimp only [Cert.Pre_finite_inputs.fn] at e
  simp only [andi, IntOp.andi_eq_one] at e
  obtain ⟨⟨e0, -⟩, -⟩ := e
  exact real_of_test _ (Host.reduce_andi_all _ _ _ _ _ e0 i)

/-- Under the precondition every entry of the second argument array is a real number. -/
theorem w_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S512x512.Idx) :
    ∃ r : ℝ, m ((c.tc : Thread Cert.KernelIdeal.nD Cert.KernelIdeal.τ).loc Cert.KernelIdeal.main_arg1) i = (r : EReal) := by
  have e := congrFun (h c) ValueIdx.ix0
  dsimp only [Cert.Pre_finite_inputs.fn] at e
  simp only [andi, IntOp.andi_eq_one] at e
  obtain ⟨⟨-, e1⟩, -⟩ := e
  exact real_of_test _ (Host.reduce_andi_all _ _ _ _ _ e1 i)

/-- Under the precondition every entry of the third argument array is a real number. -/
theorem b_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S512.Idx) :
    ∃ r : ℝ, m ((c.tc : Thread Cert.KernelIdeal.nD Cert.KernelIdeal.τ).loc Cert.KernelIdeal.main_arg2) i = (r : EReal) := by
  have e := congrFun (h c) ValueIdx.ix0
  dsimp only [Cert.Pre_finite_inputs.fn] at e
  simp only [andi, IntOp.andi_eq_one] at e
  obtain ⟨-, e2⟩ := e
  exact real_of_test _ (Host.reduce_andi_all _ _ _ _ _ e2 i)

end Cert.Finite

end
-- ==== Proof.lean ====
/-
  A kernel-regression layer with Gaussian weights followed by a linear layer, computed two ways.

  For `x : [8192, 512]`, `W : [512, 512]`, `b : [512]`: with `sq R = ∑ d, x R d ^ 2` and the weight
  `w R n = exp (-(max (sq R + sq n - 2 ⟨x R, x n⟩) 0) / 2048)`, the result is

      out R o = ∑ d, ((∑ n, w R n · x n d) / (∑ n, w R n + ε)) · W o d + b o.

  One program walks an 8 × 8 grid of [1024, 1024] weight blocks.  It scales before multiplying — its exponent is
  `(sq R · (-2⁻¹¹) + sq n · (-2⁻¹¹)) + ∑ d, (x R d · 2⁻¹⁰) · x n d`, clamped from above at zero —, keeps a running weighted
  sum and a running normaliser along each row block, and divides once at the row block's last step.  The other
  clamps the squared distance from below, negates, divides by 2048, normalises every weight, and only then sums.
  On the extended reals a finite sum is a sum in a commutative monoid, so the order and the blocking of the sums are
  free; what joins the two arrangements is distributivity (a factor moved across a sum, a quotient of a sum as a sum
  of quotients) and `min (-s/2048) 0 = -(max s 0)/2048`, which hold because every entry of `x` is a real number — the
  one place the precondition is used.  `W` and `b` enter both sides through the same last operation and need no
  finiteness.

  The modules: Spec (both arrangements, entry by entry), Algebra (they agree for real `x`), Finite (the precondition
  makes `x` real), RefValue (the reference's stages are the second arrangement), HostArrays / Blocks (what the
  blocks of the grid hold), Pieces / PayIdx (the body's arithmetic per case and per entry), Accum (the running
  quantities after every grid point, by induction along the grid), Final (the result array is the first
  arrangement).  The two runs' frames come with the programs' generated frame and run modules; the idealization
  rewrote nothing, so there is nothing to preserve.
-/
import proofs.«172829_j24429773979648_2_alg».proof.Defs
import proofs.«172829_j24429773979648_2_alg».proof.Proof.Gen.Kernel
import proofs.«172829_j24429773979648_2_alg».proof.Proof.Gen.Kernel.Skeleton
import proofs.«172829_j24429773979648_2_alg».proof.Proof.Gen.Kernel.Launch
import proofs.«172829_j24429773979648_2_alg».proof.Proof.Gen.Kernel.Points
import proofs.«172829_j24429773979648_2_alg».proof.Proof.Gen.Kernel.Frame
import proofs.«172829_j24429773979648_2_alg».proof.Proof.Gen.KernelIdeal
import proofs.«172829_j24429773979648_2_alg».proof.Proof.Gen.KernelIdeal.Skeleton
import proofs.«172829_j24429773979648_2_alg».proof.Proof.Gen.KernelIdeal.Launch
import proofs.«172829_j24429773979648_2_alg».proof.Proof.Gen.KernelIdeal.Points
import proofs.«172829_j24429773979648_2_alg».proof.Proof.Gen.KernelIdeal.Frame
import proofs.«172829_j24429773979648_2_alg».proof.Proof.Gen.ReferenceIdeal
import proofs.«172829_j24429773979648_2_alg».proof.Proof.Gen.Pre_finite_inputs
import proofs.«172829_j24429773979648_2_alg».proof.Proof.Gen.KernelIdeal.Value
import proofs.«172829_j24429773979648_2_alg».proof.Proof.Gen.ReferenceIdeal.Run
import proofs.«172829_j24429773979648_2_alg».proof.Proof.Gen.ReferenceIdeal.Read
import proofs.«172829_j24429773979648_2_alg».proof.Proof.Final
import proofs.«172829_j24429773979648_2_alg».proof.Proof.RefValue
import proofs.«172829_j24429773979648_2_alg».proof.Proof.Algebra
import proofs.«172829_j24429773979648_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its reading on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run, with its result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the grid program's result array ends at the first arrangement and the reference's at
    the second, of the same argument arrays; the first argument is real under the precondition, so the two are equal
    entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2]
  funext i
  obtain ⟨R, o, rfl⟩ : ∃ (R : Fin 8192) (o : Fin 512), i = ix2 R o := ⟨i 0, i 1, eq_ix2 i⟩
  rw [Cert.RefValue.ref_eq]
  exact (Cert.Algebra.kOut_eq_rOut _ (fun R d => Cert.Finite.x_real m hpre c (ix2 R d)) _ _ R o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
